-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1000000x64 .f32) (main_arg1 : FVec F S64x64 .f32) (main_arg2 : FVec F S64 .f32) (main_arg3 : FVec F S64x128 .f32) (main_arg4 : FVec F S128 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S1000000x128 : Shape := ⟨2, ![1000000, 128]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩

abbrev nBuf : Space → Nat
  | .hbm => 8
  | .vmem => 8
  | .smem => 0
  | _ => 0

abbrev bufTy : (tb : Table) → Fin (tcTables nBuf tb) → BufTy
  | .hbm, ⟨0, _⟩ => ⟨S1000000x64, .f32⟩
  | .hbm, ⟨1, _⟩ => ⟨S64x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S1x64, .f32⟩
  | .hbm, ⟨6, _⟩ => ⟨S1x128, .f32⟩
  | .hbm, ⟨7, _⟩ => ⟨S1000000x128, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S1000000x128.size a
  hwx0_5 : ∀ i : grid0.Coords, EltTy.bits .f32 = 32 ∨ (Rect.block (s := S1000000x128) S10000x128.size (cc0_transform_5 i) (hinb0_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x64 : Shape := ⟨2, ![1, 64]⟩
abbrev S_ : Shape := ⟨0, ![]⟩
abbrev S1000000x128 : Shape := ⟨2, ![1000000, 128]⟩
abbrev S1x128 : Shape := ⟨2, ![1, 128]⟩
abbrev S1000000 : Shape := ⟨1, ![1000000]⟩
abbrev S1000000x1 : Shape := ⟨2, ![1000000, 1]⟩

abbrev nBuf : Space → Nat
  | .hbm => 37
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S64x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S1000000x64, .f32⟩
  | .hbm, ⟨6, _⟩ => ⟨S1x64, .f32⟩
  | .hbm, ⟨7, _⟩ => ⟨S1000000x64, .f32⟩
  | .hbm, ⟨8, _⟩ => ⟨S1000000x64, .f32⟩
  | .hbm, ⟨9, _⟩ => ⟨S_, .f32⟩
  | .hbm, ⟨10, _⟩ => ⟨S1000000x64, .f32⟩
  | .hbm, ⟨11, _⟩ => ⟨S1000000x64, .f32⟩
  | .hbm, ⟨12, _⟩ => ⟨S1000000x128, .f32⟩
  | .hbm, ⟨13, _⟩ => ⟨S1x128, .f32⟩
  | .hbm, ⟨14, _⟩ => ⟨S1000000x128, .f32⟩
  | .hbm, ⟨15, _⟩ => ⟨S1000000x128, .f32⟩
  | .hbm, ⟨16, _⟩ => ⟨S1000000x128, .f32⟩
  | .hbm, ⟨17, _⟩ => ⟨S_, .f32⟩
  | .hbm, ⟨18, _⟩ => ⟨S1000000, .f32⟩
  | .hbm, ⟨19, _⟩ => ⟨S1000000x1, .f32⟩
  | .hbm, ⟨20, _⟩ => ⟨S1000000x1, .f32⟩
  | .hbm, ⟨21, _⟩ => ⟨S_, .f32⟩
  | .hbm, ⟨22, _⟩ => ⟨S1000000x1, .f32⟩
  | .hbm, ⟨23, _⟩ => ⟨S1000000x1, .i1⟩
  | .hbm, ⟨24, _⟩ => ⟨S_, .f32⟩
  | .hbm, ⟨25, _⟩ => ⟨S1000000x128, .f32⟩
  | .hbm, ⟨26, _⟩ => ⟨S_, .f32⟩
  | .hbm, ⟨27, _⟩ => ⟨S1000000x1, .f32⟩
  | .hbm, ⟨28, _⟩ => ⟨S1000000x1, .i1⟩
  | .hbm, ⟨29, _⟩ => ⟨S_, .f32⟩
  | .hbm, ⟨30, _⟩ => ⟨S_, .f32⟩
  | .hbm, ⟨31, _⟩ => ⟨S1000000x1, .f32⟩
  | .hbm, ⟨32, _⟩ => ⟨S1000000x1, .f32⟩
  | .hbm, ⟨33, _⟩ => ⟨S1000000x128, .f32⟩
  | .hbm, ⟨34, _⟩ => ⟨S1000000x128, .f32⟩
  | .hbm, ⟨35, _⟩ => ⟨S1000000x128, .i1⟩
  | .hbm, ⟨36, _⟩ => ⟨S1000000x128, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call3_v0 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S1000000x128 : S_.BroadcastsInDim S1000000x128 (![] : Fin 0 → Fin S1000000x128.rank)
  bcast_S1000000x1_S1000000x128_0_1 : S1000000x1.BroadcastsInDim S1000000x128 (![0, 1] : Fin 2 → Fin S1000000x128.rank)
  dot_S1000000x64_S64x64_S1000000x64_1_0_0_1_n_n_wf : DotDims.WF S1000000x64 S64x64 S1000000x64 [1] [0] [0] [1] [] []
  dot_S1000000x64_S64x128_S1000000x128_1_0_0_1_n_n_wf : DotDims.WF S1000000x64 S64x128 S1000000x128 [1] [0] [0] [1] [] []

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf

class Facts : Prop extends Facts₀ where

variable [Facts]
-- ==== Proof.Spec.lean ====
/-
  The function both programs compute, for one sample (one row of the batch), on the extended reals.

  A sample is a row `xr` of 64 features. The hidden layer is `hid j = max (Σ_k xr k · w1 k j + b1 j) 0`, the embedding
  `emb c = Σ_k hid k · w2 k c + b2 c` (128 entries), and `sumsq = Σ_c emb c · emb c` its squared Euclidean length. The
  result is the embedding scaled to unit length, with the zero embedding left at zero. The two programs spell the scaling
  differently: one multiplies by `1 / √sumsq` where `sumsq > 0` and by `0` elsewhere (`scaleK`); the other divides by
  `√sumsq` unless that root is `0`, where it answers `0` (`scaleR`). `scaleK_eq_scaleR` says these agree at EVERY extended
  real `s` in place of `sumsq`, the infinities and the negatives included, so nothing about the inputs is needed:
    s < 0 or s = ⊥ : the first gives e · 0; the root is ⊥, not 0, and e / ⊥ = e · ⊥⁻¹ = e · 0;
    s = 0          : both give 0;
    0 < s < ⊤      : e · (√s)⁻¹ on both sides;
    s = ⊤          : 1/√⊤ = 0 gives e · 0; the root is ⊤ and e / ⊤ = e · ⊤⁻¹ = e · 0.
  The word of +0.0 is kept as `Ideal.ofBits .f32 0` in the definitions, as both programs print it, and is only read as the
  number 0 inside the proof of the law.
-/
import Idealize.ShloMosaic.PureOps.Ideal.Laws

noncomputable section

open scoped BigOperators

namespace Cert.Spec

open Idealize.ShloMosaic

/-- Hidden unit `j` of a sample: the affine map of the row followed by the maximum with zero. -/
def hid (xr : Fin 64 → EReal) (w1 : Fin 64 → Fin 64 → EReal) (b1 : Fin 64 → EReal) (j : Fin 64) : EReal :=
  max ((∑ k : Fin 64, xr k * w1 k j) + b1 j) (Ideal.ofBits .f32 0x00000000#32)

/-- Entry `c` of the sample's embedding: the second affine map, of the hidden units. -/
def emb (xr : Fin 64 → EReal) (w1 : Fin 64 → Fin 64 → EReal) (b1 : Fin 64 → EReal) (w2 : Fin 64 → Fin 128 → EReal)
    (b2 : Fin 128 → EReal) (c : Fin 128) : EReal :=
  (∑ k : Fin 64, hid xr w1 b1 k * w2 k c) + b2 c

/-- The embedding's squared length. -/
def sumsq (xr : Fin 64 → EReal) (w1 : Fin 64 → Fin 64 → EReal) (b1 : Fin 64 → EReal) (w2 : Fin 64 → Fin 128 → EReal)
    (b2 : Fin 128 → EReal) : EReal :=
  ∑ c : Fin 128, emb xr w1 b1 w2 b2 c * emb xr w1 b1 w2 b2 c

/-- Scaling by the reciprocal root where the squared length `s` is positive, by zero elsewhere. -/
def scaleK (e s : EReal) : EReal :=
  e * Scalar.select (Ideal.cmp .ogt s (Ideal.ofBits .f32 0x00000000#32)) (Ideal.rsqrt s) (Ideal.ofBits .f32 0x00000000#32)

/-- Division by the root of `0 + s` unless the root is zero, where the answer is zero (the inner choice of `1` as the
    divisor is made exactly where the outer choice discards the quotient). -/
def scaleR (e s : EReal) : EReal :=
  Scalar.select (Ideal.cmp .oeq (Ideal.sqrt (Ideal.ofBits .f32 0x00000000#32 + s)) (Ideal.ofBits .f32 0x00000000#32))
    (Ideal.ofBits .f32 0x00000000#32)
    (Ideal.div e (Scalar.select (Ideal.cmp .oeq (Ideal.sqrt (Ideal.ofBits .f32 0x00000000#32 + s)) (Ideal.ofBits .f32 0x00000000#32))
      (Ideal.ofBits .f32 0x3F800000#32) (Ideal.sqrt (Ideal.ofBits .f32 0x00000000#32 + s))))

/-- A choice on a decided proposition's bit is the `if`. -/
theorem select_ofBool {α : Type} (P : Prop) [Decidable P] (a b : α) :
    Scalar.select (BitVec.ofBool (decide P)) a b = if P then a else b := by
  by_cases h : P
  · simp [Scalar.select, h]
  · simp [Scalar.select, h]

/-- The two scalings agree at every extended real. -/
theorem scaleK_eq_scaleR (e s : EReal) : scaleK e s = scaleR e s := by
  unfold scaleK scaleR
  rw [Ideal.ofBits_zero_f32, zero_add]
  simp only [Ideal.cmp, select_ofBool]
  induction s using EReal.rec with
  | bot =>
    have h1 : ¬ ((0 : EReal) < ⊥) := not_lt_bot
    have h2 : Ideal.sqrt ⊥ = ⊥ := rfl
    rw [if_neg h1, h2, if_neg (by simp), if_neg (by simp)]
    simp [Ideal.div]
  | top =>
    have h2 : Ideal.sqrt ⊤ = ⊤ := rfl
    have h3 : Ideal.rsqrt ⊤ = 0 := rfl
    rw [if_pos (by simp), h2, h3, if_neg (by simp), if_neg (by simp)]
    simp [Ideal.div]
  | coe r =>
    rcases lt_trichotomy r 0 with hr | hr | hr
    · have h2 : Ideal.sqrt (r : EReal) = ⊥ := by show (if r < 0 then ⊥ else _) = _; rw [if_pos hr]
      rw [if_neg (by simpa using hr.le), h2, if_neg (by simp), if_neg (by simp)]
      simp [Ideal.div]
    · subst hr
      have h2 : Ideal.sqrt ((0 : ℝ) : EReal) = 0 := by
        show (if (0 : ℝ) < 0 then ⊥ else ((Real.sqrt 0 : ℝ) : EReal)) = _
        rw [if_neg (lt_irrefl _), Real.sqrt_zero]; rfl
      rw [h2, if_neg (by simp), if_pos rfl, mul_zero]
    · have hs : 0 < Real.sqrt r := Real.sqrt_pos.mpr hr
      have h2 : Ideal.sqrt (r : EReal) = ((Real.sqrt r : ℝ) : EReal) := by
        show (if r < 0 then ⊥ else _) = _; rw [if_neg (not_lt.mpr hr.le)]
      have h3 : Ideal.rsqrt (r : EReal) = (((Real.sqrt r)⁻¹ : ℝ) : EReal) := by
        show (if r < 0 then ⊥ else if r = 0 then ⊤ else _) = _
        rw [if_neg (not_lt.mpr hr.le), if_neg hr.ne']
      have hne : ((Real.sqrt r : ℝ) : EReal) ≠ 0 := by
        rw [← EReal.coe_zero]; exact fun h => hs.ne' (EReal.coe_eq_coe_iff.mp h)
      rw [if_pos (by exact_mod_cast hr), h2, h3, if_neg hne, if_neg hne]
      unfold Ideal.div
      rw [if_neg hne, EReal.coe_inv]

end Cert.Spec

end
-- ==== Proof.Net.lean ====
/-
  The function of the whole batch that both programs end holding: entry (r, c) of the [1000000, 128] result is the
  scaling (`Spec.scaleK`) of sample r's embedding entry c by sample r's squared length, sample r being row r of the
  [1000000, 64] input. The weights and biases are read through their own indices: `a1` at (k, j), `a2` at j, `a3` at
  (k, c), `a4` at c.
-/
import proofs.«113238_j77214922048066_2_alg».proof.Proof.Spec
import Idealize.ShloMosaic.Lib.ValueIdx

noncomputable section

namespace Cert.Spec

open Idealize.ShloMosaic Idealize.ShloMosaic.ValueIdx

/-- The normalized embedding of sample `r`, entry `c`, from the five argument arrays. -/
def netAt (a0 : (⟨2, ![1000000, 64]⟩ : Shape).Idx → EReal) (a1 : (⟨2, ![64, 64]⟩ : Shape).Idx → EReal) (a2 : (⟨1, ![64]⟩ : Shape).Idx → EReal)
    (a3 : (⟨2, ![64, 128]⟩ : Shape).Idx → EReal) (a4 : (⟨1, ![128]⟩ : Shape).Idx → EReal) (r : Fin 1000000) (c : Fin 128) : EReal :=
  scaleK (emb (fun k => a0 (ix2 r k)) (fun k j => a1 (ix2 k j)) (fun j => a2 (ix1 j)) (fun k c => a3 (ix2 k c)) (fun c => a4 (ix1 c)) c)
    (sumsq (fun k => a0 (ix2 r k)) (fun k j => a1 (ix2 k j)) (fun j => a2 (ix1 j)) (fun k c => a3 (ix2 k c)) (fun c => a4 (ix1 c)))

/-- The result array as one function of the argument arrays. -/
def net (a0 : (⟨2, ![1000000, 64]⟩ : Shape).Idx → EReal) (a1 : (⟨2, ![64, 64]⟩ : Shape).Idx → EReal) (a2 : (⟨1, ![64]⟩ : Shape).Idx → EReal)
    (a3 : (⟨2, ![64, 128]⟩ : Shape).Idx → EReal) (a4 : (⟨1, ![128]⟩ : Shape).Idx → EReal) : (⟨2, ![1000000, 128]⟩ : Shape).Idx → EReal :=
  fun i => netAt a0 a1 a2 a3 a4 (i 0) (i 1)

theorem net_apply (a0 : (⟨2, ![1000000, 64]⟩ : Shape).Idx → EReal) (a1 : (⟨2, ![64, 64]⟩ : Shape).Idx → EReal) (a2 : (⟨1, ![64]⟩ : Shape).Idx → EReal)
    (a3 : (⟨2, ![64, 128]⟩ : Shape).Idx → EReal) (a4 : (⟨1, ![128]⟩ : Shape).Idx → EReal) (r : Fin 1000000) (c : Fin 128) :
    net a0 a1 a2 a3 a4 (ix2 r c) = netAt a0 a1 a2 a3 a4 r c := rfl

end Cert.Spec

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Body.lean ====
/-
  The value the kernel body stores, entry by entry, at the extended reals.

  At one grid point the body holds a block of 10000 samples `X0`, the two weight matrices `X1`, `X3` and the two bias
  rows `X2`, `X4` (each a [1, n] array), and stores one [10000, 128] block. Entry (p, q) of that block depends on row p of
  `X0` only: it is `Spec.scaleK (emb q) sumsq` for the embedding and squared length of sample p. The body is cut into the
  hidden activations `hidV`, the embeddings `embV`, the column of squared lengths `ssV` and the scaled block `scaleV`; each
  is read at an entry by one lemma. The changes of float format on the way into the two products are the identity here,
  a product into the zero accumulator is the plain sum over the contracted axis, and the sum along a row kept as a
  column is the sum of the row's entries.
-/
import proofs.«113238_j77214922048066_2_alg».proof.Proof.Gen.KernelIdeal.Skeleton
import proofs.«113238_j77214922048066_2_alg».proof.Proof.Spec
import proofs.«113238_j77214922048066_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The body in four pieces -/

/-- The hidden activations of the block's samples: first product, bias row added, maximum with zero. -/
def hidV (X0 : Vec Ideal S10000x64 .f32) (X1 : Vec Ideal S64x64 .f32) (X2 : Vec Ideal S1x64 .f32) : FVec Ideal S10000x64 .f32 :=
  maximumf (addf (matmul dot_S10000x64_S64x64_S10000x64_1_0_0_1_n_n none (truncf .bf16 X0 bitsLt_bf16_f32) (truncf .bf16 X1 bitsLt_bf16_f32)
        (constant (F := Ideal) S10000x64 .f32 0x00000000#32))
      (broadcastTo S10000x64 (shapeCast S1x64 X2 shapeCasts_S1x64_S1x64) broadcasts_S1x64_S10000x64))
    (broadcast S10000x64 (Scalar.ofBits (F := Ideal) .f32 0x00000000#32))

/-- The embeddings of the block's samples: second product, of the hidden activations, bias row added. -/
def embV (X0 : Vec Ideal S10000x64 .f32) (X1 : Vec Ideal S64x64 .f32) (X2 : Vec Ideal S1x64 .f32) (X3 : Vec Ideal S64x128 .f32)
    (X4 : Vec Ideal S1x128 .f32) : FVec Ideal S10000x128 .f32 :=
  addf (matmul dot_S10000x64_S64x128_S10000x128_1_0_0_1_n_n none (truncf .bf16 (hidV X0 X1 X2) bitsLt_bf16_f32) (truncf .bf16 X3 bitsLt_bf16_f32)
      (constant (F := Ideal) S10000x128 .f32 0x00000000#32))
    (broadcastTo S10000x128 (shapeCast S1x128 X4 shapeCasts_S1x128_S1x128) broadcasts_S1x128_S10000x128)

/-- The squared lengths of the rows of `E`, as a column. -/
def ssV (E : FVec Ideal S10000x128 .f32) : FVec Ideal S10000x1 .f32 :=
  shapeCast S10000x1 (multiReduction (F := Ideal) .add [1] S10000 (mulf E E) 0x00000000#32 reduces_S10000x128_S10000 (.inl rfl) rfl)
    shapeCasts_S10000_S10000x1

/-- Each row of `E` times the reciprocal root of its squared length where that is positive, times zero elsewhere. -/
def scaleV (E : FVec Ideal S10000x128 .f32) : FVec Ideal S10000x128 .f32 :=
  mulf E (broadcastTo S10000x128
    (select (cmpf .ogt (ssV E) (broadcast S10000x1 (Scalar.ofBits (F := Ideal) .f32 0x00000000#32))) (rsqrt (ssV E))
      (broadcast S10000x1 (Scalar.ofBits (F := Ideal) .f32 0x00000000#32)))
    broadcasts_S10000x1_S10000x128)

/-- The stored value is the scaled block of the embeddings. -/
theorem pay_eq (X0 : Vec Ideal S10000x64 .f32) (X1 : Vec Ideal S64x64 .f32) (X2 : Vec Ideal S1x64 .f32) (X3 : Vec Ideal S64x128 .f32)
    (X4 : Vec Ideal S1x128 .f32) : k0_pay1 X0 X1 X2 X3 X4 = scaleV (embV X0 X1 X2 X3 X4) := rfl

/-! ## The two products at an entry -/

theorem dot1_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem dot1_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The first product into the zero accumulator, at (p, j): the sum over the 64 features. -/
theorem dot1_apply (A : FVec Ideal S10000x64 .bf16) (B : FVec Ideal S64x64 .bf16) (p : Fin 10000) (j : Fin 64) :
    matmul dot_S10000x64_S64x64_S10000x64_1_0_0_1_n_n none A B (constant (F := Ideal) S10000x64 .f32 0x00000000#32) (ix2 p j)
      = ∑ k : Fin 64, A (ix2 p k) * B (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ => exact dot1_lhs0 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl _ _).trans hk
      | ⟨1, _⟩ => exact dot1_rhs1 _ _)
  rw [el, er]

theorem dot2_lhs0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl
theorem dot2_rhs1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- The second product into the zero accumulator, at (p, c): the sum over the 64 hidden units. -/
theorem dot2_apply (A : FVec Ideal S10000x64 .bf16) (B : FVec Ideal S64x128 .bf16) (p : Fin 10000) (c : Fin 128) :
    matmul dot_S10000x64_S64x128_S10000x128_1_0_0_1_n_n none A B (constant (F := Ideal) S10000x128 .f32 0x00000000#32) (ix2 p c)
      = ∑ k : Fin 64, A (ix2 p k) * B (ix2 k c) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p c) ((contrEquiv1 dot_S10000x64_S64x128_S10000x128_1_0_0_1_n_n 64 rfl rfl).symm k) = ix2 p k :=
    funext fun a => Fin.ext (by
      match a with
      | ⟨0, _⟩ => exact dot2_lhs0 _ _
      | ⟨1, _⟩ => exact (dot_S10000x64_S64x128_S10000x128_1_0_0_1_n_n.lhsIdx_val_of_single rfl _ _).trans hk)
  have er : dot_S10000x64_S64x128_S10000x128_1_0_0_1_n_n.rhsIdx (ix2 p c) ((contrEquiv1 dot_S10000x64_S64x128_S10000x128_1_0_0_1_n_n 64 rfl rfl).symm k) = ix2 k c :=
    funext fun a => Fin.ext (by
      match a with
      | ⟨0, _⟩ => exact (dot_S10000x64_S64x128_S10000x128_1_0_0_1_n_n.rhsIdx_val_of_single rfl _ _).trans hk
      | ⟨1, _⟩ => exact dot2_rhs1 _ _)
  rw [el, er]

/-! ## The four pieces at an entry -/

/-- Hidden activation (p, j) is `Spec.hid` of row p of the block. -/
theorem hidV_apply (X0 : Vec Ideal S10000x64 .f32) (X1 : Vec Ideal S64x64 .f32) (X2 : Vec Ideal S1x64 .f32) (p : Fin 10000) (j : Fin 64) :
    hidV X0 X1 X2 (ix2 p j)
      = Spec.hid (fun k => X0 (ix2 p k)) (fun k j => X1 (ix2 k j)) (fun j => X2 (ix2 (0 : Fin 1) j)) j := by
  unfold hidV Spec.hid
  rw [maximumf_apply, addf_apply, dot1_apply, broadcastTo_1b_ab_apply, shapeCast_self]
  rfl

/-- Embedding entry (p, c) is `Spec.emb` of row p of the block. -/
theorem embV_apply (X0 : Vec Ideal S10000x64 .f32) (X1 : Vec Ideal S64x64 .f32) (X2 : Vec Ideal S1x64 .f32) (X3 : Vec Ideal S64x128 .f32)
    (X4 : Vec Ideal S1x128 .f32) (p : Fin 10000) (c : Fin 128) :
    embV X0 X1 X2 X3 X4 (ix2 p c)
      = Spec.emb (fun k => X0 (ix2 p k)) (fun k j => X1 (ix2 k j)) (fun j => X2 (ix2 (0 : Fin 1) j)) (fun k c => X3 (ix2 k c))
          (fun c => X4 (ix2 (0 : Fin 1) c)) c := by
  unfold embV Spec.emb
  rw [addf_apply, dot2_apply, broadcastTo_1b_ab_apply, shapeCast_self]
  refine congrArg (· + X4 (ix2 (0 : Fin 1) c)) (Finset.sum_congr rfl fun k _ => ?_)
  rw [truncf_apply, truncf_apply, hidV_apply]

/-- The column of squared lengths at row p: the sum of the squares of row p's entries. -/
theorem ssV_apply (E : FVec Ideal S10000x128 .f32) (p : Fin 10000) (u : Fin 1) :
    ssV E (ix2 p u) = ∑ c : Fin 128, E (ix2 p c) * E (ix2 p c) := by
  unfold ssV
  refine (Cert.Lib.shapeCast_a_a1_apply _ _ p u).trans ?_
  refine (Cert.Lib.rowSum_apply (mulf E E) 0x00000000#32 reduces_S10000x128_S10000 (.inl rfl) rfl p).trans ?_
  rfl

/-- The scaled block at (p, q). -/
theorem scaleV_apply (E : FVec Ideal S10000x128 .f32) (p : Fin 10000) (q : Fin 128) :
    scaleV E (ix2 p q) = Spec.scaleK (E (ix2 p q)) (∑ c : Fin 128, E (ix2 p c) * E (ix2 p c)) := by
  unfold scaleV Spec.scaleK
  rw [mulf_apply]
  refine congrArg (E (ix2 p q) * ·) ?_
  refine (Cert.Lib.broadcastTo_a1_ab_apply _ _ p q).trans ?_
  show Scalar.select (FloatOps.cmpf .ogt (ssV E (ix2 p (0 : Fin 1))) (Ideal.ofBits .f32 0x00000000#32))
      (FloatOps.rsqrt (ssV E (ix2 p (0 : Fin 1)))) (Ideal.ofBits .f32 0x00000000#32) = _
  rw [ssV_apply]
  rfl

/-- THE STORED BLOCK AT (p, q): the scaling of sample p's embedding entry q by sample p's squared length. -/
theorem pay_apply (X0 : Vec Ideal S10000x64 .f32) (X1 : Vec Ideal S64x64 .f32) (X2 : Vec Ideal S1x64 .f32) (X3 : Vec Ideal S64x128 .f32)
    (X4 : Vec Ideal S1x128 .f32) (p : Fin 10000) (q : Fin 128) :
    k0_pay1 X0 X1 X2 X3 X4 (ix2 p q)
      = Spec.scaleK
          (Spec.emb (fun k => X0 (ix2 p k)) (fun k j => X1 (ix2 k j)) (fun j => X2 (ix2 (0 : Fin 1) j)) (fun k c => X3 (ix2 k c))
            (fun c => X4 (ix2 (0 : Fin 1) c)) q)
          (Spec.sumsq (fun k => X0 (ix2 p k)) (fun k j => X1 (ix2 k j)) (fun j => X2 (ix2 (0 : Fin 1) j)) (fun k c => X3 (ix2 k c))
            (fun c => X4 (ix2 (0 : Fin 1) c))) := by
  rw [pay_eq, scaleV_apply]
  unfold Spec.sumsq
  simp only [embV_apply]

end Cert.KernelIdeal.Body

end
-- ==== Proof.Whole.lean ====
/-
  From the blocks the kernel writes to the whole result array.

  The grid has 100 points. At point t the input window over the batch holds rows 10000·t … 10000·t + 9999, the weight
  and bias windows hold their whole arrays at every point (the two bias rows being the bias vectors laid out as [1, n]
  arrays before the region), and the output window is written back to rows 10000·t … 10000·t + 9999 of the result. So
  the block written back at point t is block t of ONE function of the argument arrays, `Spec.net`: entry (p, q) of the
  stored block is the scaling of the embedding of the block's sample p, which is the batch's sample 10000·t + p. Every row
  r of the result lies in the block of point r / 10000, so the blocks cover the array and the array ends at `Spec.net`.
-/
import proofs.«113238_j77214922048066_2_alg».proof.Proof.Gen.KernelIdeal.Value
import proofs.«113238_j77214922048066_2_alg».proof.Proof.Body
import proofs.«113238_j77214922048066_2_alg».proof.Proof.Net
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at every grid point: the batch window and the output window are at block row t, every other
    window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array as one function of the argument arrays as launched. -/
abbrev result (c : Dev nD) : Buf (Elt Ideal) ((c : Thread nD τ).loc main_v2) :=
  Spec.net (m ((c : Thread nD τ).loc main_arg0)) (m ((c : Thread nD τ).loc main_arg1)) (m ((c : Thread nD τ).loc main_arg2))
    (m ((c : Thread nD τ).loc main_arg3)) (m ((c : Thread nD τ).loc main_arg4))

/-! ## Each input window's block, read where the computation reads it -/

/-- The batch window's block at point t, at (p, k): the batch at row 10000·t + p. -/
theorem block0 (c : Dev nD) (t : Fin cfg0.N) (p : Fin 10000) (k : Fin 64) (R : Fin 1000000) (hR : R.val = t.val * 10000 + p.val) :
    (iblk m c 0 t : Vec Ideal S10000x64 .f32) (ix2 p k) = (m ((c : Thread nD τ).loc main_arg0) : S1000000x64.Idx → EReal) (ix2 R k) := by
  obtain ⟨e0, e1, -⟩ := idx_facts t
  unfold iblk
  rw [View.read_apply]
  show V m c main_arg0 _ = _
  rw [V_main_arg0]
  refine congrArg _ ?_
  funext a; apply Fin.ext
  match a with
  | ⟨0, _⟩ => show win0_0.index t (0 : Fin 2) * 10000 + 1 * p.val = R.val; rw [e0, hR]; omega
  | ⟨1, _⟩ => show win0_0.index t (1 : Fin 2) * 64 + 1 * k.val = k.val; rw [e1]; omega

/-- The first weight window's block is the whole first weight matrix. -/
theorem block1 (c : Dev nD) (t : Fin cfg0.N) (k j : Fin 64) :
    (iblk m c 1 t : Vec Ideal S64x64 .f32) (ix2 k j) = (m ((c : Thread nD τ).loc main_arg1) : S64x64.Idx → EReal) (ix2 k j) := by
  obtain ⟨-, -, e0, e1, -⟩ := idx_facts t
  unfold iblk
  rw [View.read_apply]
  show V m c main_arg1 _ = _
  rw [V_main_arg1]
  refine congrArg _ ?_
  funext a; apply Fin.ext
  match a with
  | ⟨0, _⟩ => show win0_1.index t (0 : Fin 2) * 64 + 1 * k.val = k.val; rw [e0]; omega
  | ⟨1, _⟩ => show win0_1.index t (1 : Fin 2) * 64 + 1 * j.val = j.val; rw [e1]; omega

/-- The second weight window's block is the whole second weight matrix. -/
theorem block3 (c : Dev nD) (t : Fin cfg0.N) (k : Fin 64) (q : Fin 128) :
    (iblk m c 3 t : Vec Ideal S64x128 .f32) (ix2 k q) = (m ((c : Thread nD τ).loc main_arg3) : S64x128.Idx → EReal) (ix2 k q) := by
  obtain ⟨-, -, -, -, -, -, e0, e1, -⟩ := idx_facts t
  unfold iblk
  rw [View.read_apply]
  show V m c main_arg3 _ = _
  rw [V_main_arg3]
  refine congrArg _ ?_
  funext a; apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The first bias as the region finds it: the bias vector laid out as one row. -/
theorem bias1_row (c : Dev nD) :
    (V m c main_v0 : S1x64.Idx → EReal)
      = shapeCast S1x64 (m ((c : Thread nD τ).loc main_arg2) : S64.Idx → EReal) shapeCasts_S64_S1x64 := by
  dsimp only [Gen.V, Gen.hostOps0]; after_results; rfl

/-- The second bias as the region finds it: the bias vector laid out as one row. -/
theorem bias2_row (c : Dev nD) :
    (V m c main_v1 : S1x128.Idx → EReal)
      = shapeCast S1x128 (m ((c : Thread nD τ).loc main_arg4) : S128.Idx → EReal) shapeCasts_S128_S1x128 := by
  dsimp only [Gen.V, Gen.hostOps0]; after_results; rfl

/-- The first bias window's block at (0, j) is the first bias vector at j. -/
theorem block2 (c : Dev nD) (t : Fin cfg0.N) (j : Fin 64) :
    (iblk m c 2 t : Vec Ideal S1x64 .f32) (ix2 (0 : Fin 1) j) = (m ((c : Thread nD τ).loc main_arg2) : S64.Idx → EReal) (ix1 j) := by
  obtain ⟨-, -, -, -, e0, e1, -⟩ := idx_facts t
  unfold iblk
  rw [View.read_apply]
  show V m c main_v0 _ = _
  rw [bias1_row]
  have hidx : ((cfg0.win 2).blk t).view.emb (ix2 (0 : Fin 1) j) = (ix2 (0 : Fin 1) j : S1x64.Idx) := by
    funext a; apply Fin.ext
    match a with
    | ⟨0, _⟩ => show win0_2.index t (0 : Fin 2) * 1 + 1 * 0 = 0; rw [e0]
    | ⟨1, _⟩ => show win0_2.index t (1 : Fin 2) * 64 + 1 * j.val = j.val; rw [e1]; omega
  rw [hidx]
  exact shapeCast_a_1a_apply _ _ 0 j

/-- The second bias window's block at (0, q) is the second bias vector at q. -/
theorem block4 (c : Dev nD) (t : Fin cfg0.N) (q : Fin 128) :
    (iblk m c 4 t : Vec Ideal S1x128 .f32) (ix2 (0 : Fin 1) q) = (m ((c : Thread nD τ).loc main_arg4) : S128.Idx → EReal) (ix1 q) := by
  obtain ⟨-, -, -, -, -, -, -, -, e0, e1, -⟩ := idx_facts t
  unfold iblk
  rw [View.read_apply]
  show V m c main_v1 _ = _
  rw [bias2_row]
  have hidx : ((cfg0.win 4).blk t).view.emb (ix2 (0 : Fin 1) q) = (ix2 (0 : Fin 1) q : S1x128.Idx) := by
    funext a; apply Fin.ext
    match a with
    | ⟨0, _⟩ => show win0_4.index t (0 : Fin 2) * 1 + 1 * 0 = 0; rw [e0]
    | ⟨1, _⟩ => show win0_4.index t (1 : Fin 2) * 128 + 1 * q.val = q.val; rw [e1]; omega
  rw [hidx]
  exact shapeCast_a_1a_apply _ _ 0 q

/-- Entry (p, q) of the output window's block at point t sits at row 10000·t + p, column q, of the result. -/
theorem out_idx (t : Fin cfg0.N) (p : Fin 10000) (q : Fin 128) (R : Fin 1000000) (hR : R.val = t.val * 10000 + p.val) :
    ((cfg0.win 5).blk t).view.emb (ix2 p q) = (ix2 R q : S1000000x128.Idx) := by
  obtain ⟨-, -, -, -, -, -, -, -, -, -, e0, e1⟩ := idx_facts t
  funext a; apply Fin.ext
  match a with
  | ⟨0, _⟩ => show win0_5.index t (0 : Fin 2) * 10000 + 1 * p.val = R.val; rw [e0, hR]; omega
  | ⟨1, _⟩ => show win0_5.index t (1 : Fin 2) * 128 + 1 * q.val = q.val; rw [e1]; omega

/-! ## What point t writes back, the cover, the array -/

/-- WHAT POINT t WRITES BACK is block t of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S10000x64) hz, View.ld_unit_zero (S := S64x64) hz, View.ld_unit_zero (S := S1x64) hz,
    View.ld_unit_zero (S := S64x128) hz, View.ld_unit_zero (S := S1x128) hz]
  funext y
  obtain ⟨p, q, rfl⟩ : ∃ (p : Fin 10000) (q : Fin 128), y = ix2 p q := ⟨y 0, y 1, eq_ix2 y⟩
  have hN : cfg0.N = 100 := N_0
  have hR : t.val * 10000 + p.val < 1000000 := by have := t.isLt; have := p.isLt; omega
  show k0_pay1 (iblk m c 0 t) (iblk m c 1 t) (iblk m c 2 t) (iblk m c 3 t) (iblk m c 4 t) (ix2 p q)
    = result m c (((cfg0.win 5).blk t).view.emb (ix2 p q))
  rw [out_idx t p q ⟨_, hR⟩ rfl]
  refine (Body.pay_apply (iblk m c 0 t) (iblk m c 1 t) (iblk m c 2 t) (iblk m c 3 t) (iblk m c 4 t) p q).trans ?_
  have h0 : (fun k : Fin 64 => (iblk m c 0 t : Vec Ideal S10000x64 .f32) (ix2 p k))
      = fun k => (m ((c : Thread nD τ).loc main_arg0) : S1000000x64.Idx → EReal) (ix2 ⟨_, hR⟩ k) :=
    funext fun k => block0 m c t p k ⟨_, hR⟩ rfl
  have h1 : (fun k j : Fin 64 => (iblk m c 1 t : Vec Ideal S64x64 .f32) (ix2 k j))
      = fun k j => (m ((c : Thread nD τ).loc main_arg1) : S64x64.Idx → EReal) (ix2 k j) :=
    funext fun k => funext fun j => block1 m c t k j
  have h2 : (fun j : Fin 64 => (iblk m c 2 t : Vec Ideal S1x64 .f32) (ix2 (0 : Fin 1) j))
      = fun j => (m ((c : Thread nD τ).loc main_arg2) : S64.Idx → EReal) (ix1 j) :=
    funext fun j => block2 m c t j
  have h3 : (fun (k : Fin 64) (q : Fin 128) => (iblk m c 3 t : Vec Ideal S64x128 .f32) (ix2 k q))
      = fun k q => (m ((c : Thread nD τ).loc main_arg3) : S64x128.Idx → EReal) (ix2 k q) :=
    funext fun k => funext fun q => block3 m c t k q
  have h4 : (fun q : Fin 128 => (iblk m c 4 t : Vec Ideal S1x128 .f32) (ix2 (0 : Fin 1) q))
      = fun q => (m ((c : Thread nD τ).loc main_arg4) : S128.Idx → EReal) (ix1 q) :=
    funext fun q => block4 m c t q
  rw [h0, h1, h2, h3, h4]
  rfl

/-- An index of the result is in point t's block iff each coordinate is in the block's range on its axis. -/
theorem mem_blk (t : Fin cfg0.N) (i : S1000000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v2).slice (win0_5.rect t)).set ↔ _
  rw [View.set_slice_whole, Rect.mem_set_unit]
  exact Iff.rfl

/-- Every index of the result is in the block of the point its row falls in. -/
theorem cover (i : S1000000x128.Idx) : ∃ t : Fin cfg0.N, (cfg0.win 5).flush t = true ∧ i ∈ ((cfg0.win 5).blk t).view.set := by
  have hi0 : (i 0).val < 1000000 := (i 0).isLt
  have hi1 : (i 1).val < 128 := (i 1).isLt
  have hN : cfg0.N = 100 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 128 ≤ (i 1).val ∧ (i 1).val < win0_5.index t (1 : Fin 2) * 128 + 128
    rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result, entry by entry, at the extended reals.

  The reference applies the same two affine layers to the whole batch, takes each row's Euclidean norm as the root of
  `0 + Σ_c emb c · emb c`, and divides the row by its norm unless the norm is zero, where it answers zero. Read one
  operation at a time at (r, c), every index map sends (r, c) to row r of the batch, to (k, ·) of a weight matrix, or to
  entry · of a bias vector; what is left is `Spec.scaleR` of sample r's embedding entry c and squared length.
-/
import proofs.«113238_j77214922048066_2_alg».proof.Proof.Gen.ReferenceIdeal.Read
import proofs.«113238_j77214922048066_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable (x0 : (⟨S1000000x64, .f32⟩ : BufTy).Contents (Elt Ideal)) (x1 : (⟨S64x64, .f32⟩ : BufTy).Contents (Elt Ideal))
  (x2 : (⟨S64, .f32⟩ : BufTy).Contents (Elt Ideal)) (x3 : (⟨S64x128, .f32⟩ : BufTy).Contents (Elt Ideal))
  (x4 : (⟨S128, .f32⟩ : BufTy).Contents (Elt Ideal))

/-- The hidden layer at (r, j). -/
theorem hidden_apply (r : Fin 1000000) (j : Fin 64) :
    val_main_v4 (F := Ideal) x0 x1 x2 (ix2 r j)
      = Spec.hid (fun k => x0 (ix2 r k)) (fun k j => x1 (ix2 k j)) (fun j => x2 (ix1 j)) j := by
  have el : ∀ k : Fin 64, lidx_main_v0 (ix2 r j) k = ix2 r k := fun k => funext fun a => Fin.ext (by
    match a with | ⟨0, _⟩ => rfl | ⟨1, _⟩ => rfl)
  have er : ∀ k : Fin 64, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v4_apply, val_main_v3_apply, val_main_v0_apply, val_main_v2_apply, val_main_v1_apply, val_main_call0_v0_apply,
    val_main_call0_cst_apply]
  simp only [el, er, eb]
  rfl

/-- The embedding at (r, c). -/
theorem embedding_apply (r : Fin 1000000) (c : Fin 128) :
    val_main_v8 (F := Ideal) x0 x1 x2 x3 x4 (ix2 r c)
      = Spec.emb (fun k => x0 (ix2 r k)) (fun k j => x1 (ix2 k j)) (fun j => x2 (ix1 j)) (fun k c => x3 (ix2 k c)) (fun c => x4 (ix1 c)) c := by
  have el : ∀ k : Fin 64, lidx_main_v5 (ix2 r c) k = ix2 r k := fun k => funext fun a => Fin.ext (by
    match a with | ⟨0, _⟩ => rfl | ⟨1, _⟩ => rfl)
  have er : ∀ k : Fin 64, ridx_main_v5 (ix2 r c) k = ix2 k c := fun k => funext fun a => Fin.ext (by
    match a with | ⟨0, _⟩ => rfl | ⟨1, _⟩ => rfl)
  have eb : idx_main_v6 (idx_main_v7 (ix2 r c)) = ix1 c := funext fun a => Fin.ext (by
    match a with | ⟨0, _⟩ => rfl)
  rw [val_main_v8_apply, val_main_v5_apply, val_main_v7_apply, val_main_v6_apply]
  simp only [el, er, eb, hidden_apply]
  rfl

/-- The norm column at (r, ·): the root of zero plus the row's squared length. -/
theorem norm_apply (r : Fin 1000000) (u : Fin 1) :
    val_main_v9 (F := Ideal) x0 x1 x2 x3 x4 (ix2 r u)
      = Ideal.sqrt (Ideal.ofBits .f32 0x00000000#32
          + Spec.sumsq (fun k => x0 (ix2 r k)) (fun k j => x1 (ix2 k j)) (fun j => x2 (ix1 j)) (fun k c => x3 (ix2 k c)) (fun c => x4 (ix1 c))) := by
  have ek : ∀ k : Fin 128, idx_main_call1_v1 (idx_main_call1_v2 (ix2 r u)) k = ix2 r k := fun k => funext fun a => Fin.ext (by
    match a with | ⟨0, _⟩ => rfl | ⟨1, _⟩ => rfl)
  rw [val_main_v9_apply, val_main_call1_v2_apply, val_main_call1_v1_apply, val_main_call1_cst_apply]
  simp only [ek, val_main_call1_v0_apply, embedding_apply]
  rfl

/-- The three zero splats and the one splat the reference compares with and chooses from. -/
theorem zero_col_apply (i : S1000000x1.Idx) : val_main_v10 (F := Ideal) i = Ideal.ofBits .f32 0x00000000#32 := by
  rw [val_main_v10_apply, val_main_cst_apply]; rfl
theorem zero_col'_apply (i : S1000000x1.Idx) : val_main_v13 (F := Ideal) i = Ideal.ofBits .f32 0x00000000#32 := by
  rw [val_main_v13_apply, val_main_cst_1_apply]; rfl
theorem zero_mat_apply (i : S1000000x128.Idx) : val_main_v12 (F := Ideal) i = Ideal.ofBits .f32 0x00000000#32 := by
  rw [val_main_v12_apply, val_main_cst_0_apply]; rfl
theorem one_col_apply (i : S1000000x1.Idx) : val_main_call2_v1 (F := Ideal) i = Ideal.ofBits .f32 0x3F800000#32 := by
  rw [val_main_call2_v1_apply, val_main_call2_v0_apply, val_main_cst_2_apply]; rfl

/-- The divisor column at (r, ·): the norm, or one where the norm is zero. -/
theorem divisor_apply (r : Fin 1000000) (u : Fin 1) :
    val_main_v15 (F := Ideal) x0 x1 x2 x3 x4 (ix2 r u)
      = Scalar.select (Ideal.cmp .oeq (val_main_v9 (F := Ideal) x0 x1 x2 x3 x4 (ix2 r u)) (Ideal.ofBits .f32 0x00000000#32))
          (Ideal.ofBits .f32 0x3F800000#32) (val_main_v9 (F := Ideal) x0 x1 x2 x3 x4 (ix2 r u)) := by
  rw [val_main_v15_apply, val_main_v14_apply, zero_col'_apply, one_col_apply]
  rfl

/-- The quotient at (r, c): the embedding entry over row r's divisor. -/
theorem quotient_apply (r : Fin 1000000) (c : Fin 128) :
    val_main_v17 (F := Ideal) x0 x1 x2 x3 x4 (ix2 r c)
      = Ideal.div (val_main_v8 (F := Ideal) x0 x1 x2 x3 x4 (ix2 r c)) (val_main_v15 (F := Ideal) x0 x1 x2 x3 x4 (ix2 r (0 : Fin 1))) := by
  have e2 : idx_main_v16 (ix2 r c) = ix2 r (0 : Fin 1) := funext fun a => Fin.ext (by
    match a with | ⟨0, _⟩ => rfl | ⟨1, _⟩ => rfl)
  rw [val_main_v17_apply, val_main_v16_apply]
  exact congrArg (fun k => Ideal.div (val_main_v8 (F := Ideal) x0 x1 x2 x3 x4 (ix2 r c)) (val_main_v15 (F := Ideal) x0 x1 x2 x3 x4 k)) e2

/-- The choice's condition at (r, c): whether row r's norm is zero. -/
theorem cond_apply (r : Fin 1000000) (c : Fin 128) :
    val_main_call3_v0 (F := Ideal) x0 x1 x2 x3 x4 (ix2 r c)
      = Ideal.cmp .oeq (val_main_v9 (F := Ideal) x0 x1 x2 x3 x4 (ix2 r (0 : Fin 1))) (Ideal.ofBits .f32 0x00000000#32) := by
  have e1 : idx_main_call3_v0 (ix2 r c) = ix2 r (0 : Fin 1) := funext fun a => Fin.ext (by
    match a with | ⟨0, _⟩ => rfl | ⟨1, _⟩ => rfl)
  rw [val_main_call3_v0_apply]
  refine (congrArg (fun k => val_main_v11 (F := Ideal) x0 x1 x2 x3 x4 k) e1).trans ?_
  rw [val_main_v11_apply, zero_col_apply]
  rfl

/-- THE RESULT AT (r, c): the reference's scaling of sample r's embedding entry c by sample r's squared length. -/
theorem result_apply (r : Fin 1000000) (c : Fin 128) :
    val_main_v18 (F := Ideal) x0 x1 x2 x3 x4 (ix2 r c)
      = Spec.scaleR
          (Spec.emb (fun k => x0 (ix2 r k)) (fun k j => x1 (ix2 k j)) (fun j => x2 (ix1 j)) (fun k c => x3 (ix2 k c)) (fun c => x4 (ix1 c)) c)
          (Spec.sumsq (fun k => x0 (ix2 r k)) (fun k j => x1 (ix2 k j)) (fun j => x2 (ix1 j)) (fun k c => x3 (ix2 k c)) (fun c => x4 (ix1 c))) := by
  rw [val_main_v18_apply, cond_apply, zero_mat_apply, quotient_apply, divisor_apply, norm_apply, embedding_apply]
  rfl

end Cert.ReferenceIdeal.RefValue

end
-- ==== Proof.lean ====
/-
  The certificate's claims.

  Both programs compute, for every sample of the batch, the embedding `relu(x·W1 + b1)·W2 + b2` scaled to unit Euclidean
  length, the zero embedding staying zero. At the extended reals a change of float format is the identity and a matrix
  product is the plain sum over the contracted axis, so the two programs' embeddings are the same function of the
  arguments; they differ only in how they scale: by `1/√s` where the squared length `s` is positive (else by 0), against
  a division by `√s` unless that root is 0 (else 0). These agree at every extended real (`Spec.scaleK_eq_scaleR`), so
  the result arrays are equal for all inputs; the precondition is not used for the equality.

  The two kernel frames are the generated frame runs; the reference's frame is its run with the result dropped; the
  idealization rewrote nothing, so `preserves` asks nothing; the kernel's run ends at `Spec.net` of the arguments
  (`Whole.run`) and so does the reference's (`reference_eq_net`).
-/
import proofs.«113238_j77214922048066_2_alg».proof.Defs
import proofs.«113238_j77214922048066_2_alg».proof.Proof.Gen.Kernel
import proofs.«113238_j77214922048066_2_alg».proof.Proof.Gen.Kernel.Skeleton
import proofs.«113238_j77214922048066_2_alg».proof.Proof.Gen.Kernel.Launch
import proofs.«113238_j77214922048066_2_alg».proof.Proof.Gen.Kernel.Points
import proofs.«113238_j77214922048066_2_alg».proof.Proof.Gen.Kernel.Frame
import proofs.«113238_j77214922048066_2_alg».proof.Proof.Gen.KernelIdeal
import proofs.«113238_j77214922048066_2_alg».proof.Proof.Gen.KernelIdeal.Skeleton
import proofs.«113238_j77214922048066_2_alg».proof.Proof.Gen.KernelIdeal.Launch
import proofs.«113238_j77214922048066_2_alg».proof.Proof.Gen.KernelIdeal.Points
import proofs.«113238_j77214922048066_2_alg».proof.Proof.Gen.KernelIdeal.Frame
import proofs.«113238_j77214922048066_2_alg».proof.Proof.Gen.ReferenceIdeal
import proofs.«113238_j77214922048066_2_alg».proof.Proof.Gen.Pre_finite_inputs
import proofs.«113238_j77214922048066_2_alg».proof.Proof.Gen.KernelIdeal.Value
import proofs.«113238_j77214922048066_2_alg».proof.Proof.Gen.ReferenceIdeal.Run
import proofs.«113238_j77214922048066_2_alg».proof.Proof.Gen.ReferenceIdeal.Read
import proofs.«113238_j77214922048066_2_alg».proof.Proof.Net
import proofs.«113238_j77214922048066_2_alg».proof.Proof.Whole
import proofs.«113238_j77214922048066_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result, as a function of its five arguments, is `Spec.net`: entry by entry the reference's scaling of
    the sample's embedding, which is the other scaling of it. -/
theorem reference_eq_net (x0 : (⟨Cert.ReferenceIdeal.S1000000x64, .f32⟩ : BufTy).Contents (Elt Ideal))
    (x1 : (⟨Cert.ReferenceIdeal.S64x64, .f32⟩ : BufTy).Contents (Elt Ideal)) (x2 : (⟨Cert.ReferenceIdeal.S64, .f32⟩ : BufTy).Contents (Elt Ideal))
    (x3 : (⟨Cert.ReferenceIdeal.S64x128, .f32⟩ : BufTy).Contents (Elt Ideal)) (x4 : (⟨Cert.ReferenceIdeal.S128, .f32⟩ : BufTy).Contents (Elt Ideal)) :
    Cert.ReferenceIdeal.Read.val_main_v18 (F := Ideal) x0 x1 x2 x3 x4 = Spec.net x0 x1 x2 x3 x4 := by
  funext i
  obtain ⟨r, c, rfl⟩ : ∃ (r : Fin 1000000) (c : Fin 128), i = ix2 r c := ⟨i 0, i 1, eq_ix2 i⟩
  rw [Cert.ReferenceIdeal.RefValue.result_apply, Spec.net_apply]
  exact (Spec.scaleK_eq_scaleR _ _).symm

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result array at `Spec.net` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, reference_eq_net, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
